-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128 .f32) (main_arg8 : FVec F S128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128 .f32) (main_arg7 : FVec F S128 .f32) (main_arg8 : FVec F S128 .f32) (main_arg9 : FVec F S128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 57
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000x128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x1, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S800000x1, .f32⟩
  | .hbm, ⟨47, _⟩ => ⟨S800000x128, .f32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v21) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v35) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v37) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000 : Shape := ⟨1, ![50000]⟩
abbrev S50000x1 : Shape := ⟨2, ![50000, 1]⟩

abbrev nBuf : Space → Nat
  | .hbm => 119
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000x128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x1, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000, .f32⟩
  | .hbm, ⟨37, _⟩ => ⟨S50000x1, .f32⟩
  | .hbm, ⟨38, _⟩ => ⟨S_, .f32⟩
  | .hbm, ⟨39, _⟩ => ⟨S50000x1, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000, .f32⟩
  | .hbm, ⟨46, _⟩ => ⟨S50000x1, .f32⟩
  | .hbm, ⟨47, _⟩ => ⟨S_, .f32⟩
  | .hbm, ⟨48, _⟩ => ⟨S50000x1, .f32⟩
  | .hbm, ⟨49, _⟩ => ⟨S50000x1, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x1, .f32⟩
  | .hbm, ⟨54, _⟩ => ⟨S50000x1, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .f32⟩
  | .hbm, ⟨77, _⟩ => ⟨S800000x1, .f32⟩
  | .hbm, ⟨78, _⟩ => ⟨S800000x128, .f32⟩
  | .hbm, ⟨79, _⟩ => ⟨S800000x128, .f32⟩
  | .hbm, ⟨80, _⟩ => ⟨S_, .f32⟩
  | .hbm, ⟨81, _⟩ => ⟨S50000x128, .f32⟩
  | .hbm, ⟨82, _⟩ => ⟨S800000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000, .f32⟩
  | .hbm, ⟨89, _⟩ => ⟨S50000x1, .f32⟩
  | .hbm, ⟨90, _⟩ => ⟨S_, .f32⟩
  | .hbm, ⟨91, _⟩ => ⟨S50000x1, .f32⟩
  | .hbm, ⟨92, _⟩ => ⟨S50000x1, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000, .f32⟩
  | .hbm, ⟨98, _⟩ => ⟨S50000x1, .f32⟩
  | .hbm, ⟨99, _⟩ => ⟨S_, .f32⟩
  | .hbm, ⟨100, _⟩ => ⟨S50000x1, .f32⟩
  | .hbm, ⟨101, _⟩ => ⟨S50000x1, .f32⟩
  | .hbm, ⟨102, _⟩ => ⟨S50000x128, .f32⟩
  | .hbm, ⟨103, _⟩ => ⟨S50000x128, .f32⟩
  | .hbm, ⟨104, _⟩ => ⟨S_, .f32⟩
  | .hbm, ⟨105, _⟩ => ⟨S50000x1, .f32⟩
  | .hbm, ⟨106, _⟩ => ⟨S50000x1, .f32⟩
  | .hbm, ⟨107, _⟩ => ⟨S50000x1, .f32⟩
  | .hbm, ⟨108, _⟩ => ⟨S50000x128, .f32⟩
  | .hbm, ⟨109, _⟩ => ⟨S50000x128, .f32⟩
  | .hbm, ⟨110, _⟩ => ⟨S1x128, .f32⟩
  | .hbm, ⟨111, _⟩ => ⟨S50000x128, .f32⟩
  | .hbm, ⟨112, _⟩ => ⟨S50000x128, .f32⟩
  | .hbm, ⟨113, _⟩ => ⟨S1x128, .f32⟩
  | .hbm, ⟨114, _⟩ => ⟨S50000x128, .f32⟩
  | .hbm, ⟨115, _⟩ => ⟨S50000x128, .f32⟩
  | .hbm, ⟨116, _⟩ => ⟨S_, .f32⟩
  | .hbm, ⟨117, _⟩ => ⟨S50000x128, .f32⟩
  | .hbm, ⟨118, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call0_cst : Ref sig .tc := ⟨.hbm, 64, rfl⟩
abbrev main_call0_v0 : Ref sig .tc := ⟨.hbm, 65, rfl⟩
abbrev main_v45 : Ref sig .tc := ⟨.hbm, 66, rfl⟩
abbrev main_v46 : Ref sig .tc := ⟨.hbm, 67, rfl⟩
abbrev main_c_6 : Ref sig .tc := ⟨.hbm, 68, rfl⟩
abbrev main_v47 : Ref sig .tc := ⟨.hbm, 69, rfl⟩
abbrev main_v48 : Ref sig .tc := ⟨.hbm, 70, rfl⟩
abbrev main_c_7 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_8 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_9 : Ref sig .tc := ⟨.hbm, 87, rfl⟩
abbrev main_v63 : Ref sig .tc := ⟨.hbm, 88, rfl⟩
abbrev main_v64 : Ref sig .tc := ⟨.hbm, 89, rfl⟩
abbrev main_cst_10 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_11 : Ref sig .tc := ⟨.hbm, 96, rfl⟩
abbrev main_v70 : Ref sig .tc := ⟨.hbm, 97, rfl⟩
abbrev main_v71 : Ref sig .tc := ⟨.hbm, 98, rfl⟩
abbrev main_cst_12 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_13 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_call1_cst : Ref sig .tc := ⟨.hbm, 116, rfl⟩
abbrev main_call1_v0 : Ref sig .tc := ⟨.hbm, 117, rfl⟩
abbrev main_v87 : Ref sig .tc := ⟨.hbm, 118, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.LibRowsProduct.lean ====
/-
  The product of two matrices of extended reals as ONE function of its entries, and the ways a program
  spells it.

  `prod M K N x w` at the entry (r, c) is the sum over k < K of x (r, k) * w (k, c). On the extended reals this sum
  is a sum in a commutative monoid, so it does not depend on an order or a grouping, and nothing needs to be finite.

  * the host's `dot_general` with the plain dimension numbers is `prod`;
  * a `tpu.matmul` of the two operands cast to bf16, into the zero accumulator, is `prod` of the operands
    themselves (at the exact instance a change of float format is the identity);
  * ROW LOCALITY: an entry of the product reads one row of the left operand and one column of the right one, so
    the product of a block of rows with the whole right operand, at an entry of the block, is the product of the
    whole matrices at the entry the block's position sends it to. This is what lets a kernel tile the rows of the
    left operand over a grid and still compute the one product.
  * a row vector [1, N] added to every row (`addRow`), as the kernel spells it (a broadcast along the rows and a sum);
  * the hyperbolic tangent applied entry by entry is the same function whether the kernel's or the host's
    operation spells it.
-/
import Idealize.ShloMosaic.PureOps.Ideal.Laws
import Idealize.ShloMosaic.Lib.ValueIdx
import Idealize.ShloMosaic.Lib.Pipeline.Value
import proofs.«120539_j61881888800780_1_alg».proof.Proof.LibPlainDot

noncomputable section

namespace RowsProduct

open Idealize.ShloMosaic Idealize.ShloMosaic.ValueIdx

variable (M K N : Nat)

/-- The matrix product, entry by entry: at (r, c) the sum over k of x (r, k) * w (k, c). -/
def prod (x : FVec Ideal ⟨2, ![M, K]⟩ .f32) (w : FVec Ideal ⟨2, ![K, N]⟩ .f32) : FVec Ideal ⟨2, ![M, N]⟩ .f32 :=
  fun j => ∑ k : Fin K, (x (ix2 (j 0) k) : EReal) * w (ix2 k (j 1))

/-- The host's `dot_general` with plain dimension numbers is the matrix product. -/
theorem hostDot_eq (x : FVec Ideal ⟨2, ![M, K]⟩ .f32) (w : FVec Ideal ⟨2, ![K, N]⟩ .f32) :
    Host.dotGeneral (DotDims.plain M K N) none x w = prod M K N x w :=
  funext fun j => PlainDot.dotGeneral_apply M K N none .single x w j

/-- A `tpu.matmul` of the operands cast to bf16, into the zero accumulator, is the matrix product of the operands. -/
theorem matmulBf16_eq (x : FVec Ideal ⟨2, ![M, K]⟩ .f32) (w : FVec Ideal ⟨2, ![K, N]⟩ .f32)
    (h : FTy.bf16.bits < FTy.f32.bits) :
    matmul (DotDims.plain M K N) none (truncf .bf16 x h) (truncf .bf16 w h) (constant ⟨2, ![M, N]⟩ .f32 0x00000000#32)
      = prod M K N x w :=
  funext fun j => PlainDot.matmul_zero_apply M K N none (truncf .bf16 x h) (truncf .bf16 w h) j

/-- ROW LOCALITY. If row `j 0` of a block `xb` is row `i 0` of `X`, and column `j 1` of `wb` is column `i 1` of `W`,
    the product of the blocks at `j` is the product of the matrices at `i`. -/
theorem prod_rows {Mb Nb : Nat} (X : FVec Ideal ⟨2, ![M, K]⟩ .f32) (W : FVec Ideal ⟨2, ![K, N]⟩ .f32)
    (xb : FVec Ideal ⟨2, ![Mb, K]⟩ .f32) (wb : FVec Ideal ⟨2, ![K, Nb]⟩ .f32)
    (j : (⟨2, ![Mb, Nb]⟩ : Shape).Idx) (i : (⟨2, ![M, N]⟩ : Shape).Idx)
    (hx : ∀ k : Fin K, xb (ix2 (j 0) k) = X (ix2 (i 0) k)) (hw : ∀ k : Fin K, wb (ix2 k (j 1)) = W (ix2 k (i 1))) :
    prod Mb K Nb xb wb j = prod M K N X W i :=
  Finset.sum_congr rfl fun k _ => by rw [hx k, hw k]

/-- A row vector [1, N] added to every row of a matrix [M, N]. -/
def addRow (a : FVec Ideal ⟨2, ![M, N]⟩ .f32) (b : FVec Ideal ⟨2, ![1, N]⟩ .f32) : FVec Ideal ⟨2, ![M, N]⟩ .f32 :=
  fun i => (a i : EReal) + b (ix2 (0 : Fin 1) (i 1))

/-- The kernel's spelling of adding a row vector: the row broadcast along the rows, then an entrywise sum. -/
theorem addf_broadcastTo_eq (a : FVec Ideal ⟨2, ![M, N]⟩ .f32) (b : FVec Ideal ⟨2, ![1, N]⟩ .f32) (hN : N ≠ 1)
    (h : (⟨2, ![1, N]⟩ : Shape).Broadcasts ⟨2, ![M, N]⟩) :
    addf a (broadcastTo ⟨2, ![M, N]⟩ b h) = addRow M N a b := by
  funext i
  show (a i : EReal) + broadcastTo ⟨2, ![M, N]⟩ b h i = (a i : EReal) + b (ix2 (0 : Fin 1) (i 1))
  congr 1
  refine broadcastTo_apply b h i (ix2 (0 : Fin 1) (i 1)) fun a => ?_
  match a with
  | ⟨0, _⟩ => show (0 : Nat) = if (1 : Nat) = 1 then 0 else _; rw [if_pos rfl]
  | ⟨1, _⟩ => show (i 1).val = if N = 1 then 0 else (i 1).val; rw [if_neg hN]

/-- Row locality of `addRow`: an entry of a block of rows plus its bias entry is the whole matrix's entry plus the
    same bias entry, when the two summands agree. -/
theorem addRow_rows {Mb : Nat} (A : FVec Ideal ⟨2, ![M, N]⟩ .f32) (B : FVec Ideal ⟨2, ![1, N]⟩ .f32)
    (ab : FVec Ideal ⟨2, ![Mb, N]⟩ .f32) (bb : FVec Ideal ⟨2, ![1, N]⟩ .f32)
    (j : (⟨2, ![Mb, N]⟩ : Shape).Idx) (i : (⟨2, ![M, N]⟩ : Shape).Idx)
    (ha : ab j = A i) (hb : bb (ix2 (0 : Fin 1) (j 1)) = B (ix2 (0 : Fin 1) (i 1))) :
    addRow Mb N ab bb j = addRow M N A B i := by
  show (ab j : EReal) + bb (ix2 (0 : Fin 1) (j 1)) = (A i : EReal) + B (ix2 (0 : Fin 1) (i 1))
  rw [ha, hb]

/-- The hyperbolic tangent entry by entry: the kernel's operation and the host's are one function. -/
theorem tanh_eq_hostTanh {s : Shape} (x : FVec Ideal s .f32) : tanh x = Host.tanh x := rfl

end RowsProduct

end
-- ==== Proof.LibLayerNormRows.lean ====
/-
  Layer normalisation of the rows of a matrix followed by a rectifier, entry by entry, on the extended reals.

  For one row `row : Fin d → EReal`, with the divisor `cN`, the stabiliser `eps` and the rectifier's floor `z` handed in
  as the programs spell them,
      mean  = (Σ_k row k) / cN
      var   = (Σ_k (row k − mean) · (row k − mean)) / cN
      out c = max (((row c − mean) · rsqrt (var + eps)) · g c + be c) z .
  The quotient and the reciprocal square root are the total operations of the exact instance (`Ideal.div`, `Ideal.rsqrt`),
  so no entry is assumed finite and no law of arithmetic is used: the two programs compared through this file apply the
  same operations in the same order, and differ only in how many rows they hold at a time.

  `lnrelu` applies this to every row of an [n, d] matrix `A` after adding a bias row `b`; the bias, the scale `g`
  and the shift `be` are [1, d] rows. An entry of the result reads ONE row of `A`. Hence ROW LOCALITY (`lnrelu_rows`):
  the result for a block of rows, at an entry of the block, is the result for the whole matrix at the entry the block's
  position sends it to (the block may hold its own copies of the bias, scale and shift rows). This is what lets a kernel tile the rows over a grid and still compute the one function.

  `rowOf v` is a vector [d] laid out as a row [1, d].
-/
import Idealize.ShloMosaic.PureOps.Ideal.Laws
import Idealize.ShloMosaic.Lib.ValueIdx

noncomputable section

namespace LayerNormRows

open Idealize.ShloMosaic Idealize.ShloMosaic.ValueIdx

variable (cN eps z : EReal) {d : Nat}

/-- The mean of a row: its sum divided by `cN`. -/
def rowMean (row : Fin d → EReal) : EReal := Ideal.div (∑ k : Fin d, row k) cN

/-- The variance of a row: the sum of the squared deviations from the mean, divided by `cN`. -/
def rowVar (row : Fin d → EReal) : EReal :=
  Ideal.div (∑ k : Fin d, (row k - rowMean cN row) * (row k - rowMean cN row)) cN

/-- One entry of the normalised, scaled, shifted and rectified row. -/
def normEntry (row g be : Fin d → EReal) (c : Fin d) : EReal :=
  max ((row c - rowMean cN row) * Ideal.rsqrt (rowVar cN row + eps) * g c + be c) z

/-- The entry depends on the row, the scale and the shift only through their values. -/
theorem normEntry_congr {row row' g g' be be' : Fin d → EReal} (hr : ∀ k, row k = row' k) (hg : ∀ k, g k = g' k)
    (hb : ∀ k, be k = be' k) (c : Fin d) : normEntry cN eps z row g be c = normEntry cN eps z row' g' be' c := by
  rw [show row = row' from funext hr, show g = g' from funext hg, show be = be' from funext hb]

variable {n : Nat}

/-- Bias, layer normalisation and rectifier of every row of an [n, d] matrix. -/
def lnrelu (A : FVec Ideal ⟨2, ![n, d]⟩ .f32) (b g be : FVec Ideal ⟨2, ![1, d]⟩ .f32) : FVec Ideal ⟨2, ![n, d]⟩ .f32 :=
  fun i => normEntry cN eps z (fun k => (A (ix2 (i 0) k) : EReal) + b (ix2 (0 : Fin 1) k))
    (fun k => g (ix2 (0 : Fin 1) k)) (fun k => be (ix2 (0 : Fin 1) k)) (i 1)

/-- ROW LOCALITY. If row `j 0` of a block `ab` is row `i 0` of `A`, the block's bias, scale and shift rows hold the
    whole rows' entries, and `j`, `i` name the same column, the block's result at `j` is the whole matrix's at `i`. -/
theorem lnrelu_rows {nb : Nat} (A : FVec Ideal ⟨2, ![n, d]⟩ .f32) (ab : FVec Ideal ⟨2, ![nb, d]⟩ .f32)
    (b g be bb gb beb : FVec Ideal ⟨2, ![1, d]⟩ .f32) (j : (⟨2, ![nb, d]⟩ : Shape).Idx) (i : (⟨2, ![n, d]⟩ : Shape).Idx)
    (hrow : ∀ k : Fin d, ab (ix2 (j 0) k) = A (ix2 (i 0) k))
    (hb : ∀ k : Fin d, bb (ix2 (0 : Fin 1) k) = b (ix2 (0 : Fin 1) k))
    (hg : ∀ k : Fin d, gb (ix2 (0 : Fin 1) k) = g (ix2 (0 : Fin 1) k))
    (hbe : ∀ k : Fin d, beb (ix2 (0 : Fin 1) k) = be (ix2 (0 : Fin 1) k))
    (hcol : (j 1 : Fin d) = i 1) :
    lnrelu cN eps z ab bb gb beb j = lnrelu cN eps z A b g be i := by
  show normEntry cN eps z _ _ _ (j 1) = normEntry cN eps z _ _ _ (i 1)
  rw [show (j 1 : Fin d) = i 1 from hcol]
  exact normEntry_congr cN eps z (fun k => by rw [hrow k, hb k]) hg hbe _

/-- A vector [d] laid out as a row [1, d]. -/
def rowOf (v : FVec Ideal ⟨1, ![d]⟩ .f32) : FVec Ideal ⟨2, ![1, d]⟩ .f32 := fun j => v (ix1 (j 1))

theorem rowOf_apply (v : FVec Ideal ⟨1, ![d]⟩ .f32) (u : Fin 1) (k : Fin d) : rowOf v (ix2 u k) = v (ix1 k) := rfl

end LayerNormRows

end
-- ==== Proof.RefDefs.lean ====
/-
  The network both programs compute, as one function of the arguments: two graph-convolution layers, each a matrix product, a
  weighted gather / scatter-add over the edges, and a bias, layer normalisation and rectifier of every row.

  The aggregation (`aggOf`: gather the rows named by the source indices, weight each by its edge's weight, add every
  weighted row into the row named by its target index) is kept as ONE closed term and never opened: the kernel spells
  it with the same operations on the same operands, so the two sides meet by congruence. The dense stages are read entry
  by entry: the product through `RowsProduct.prod`, the normalisation through `LayerNormRows`.
-/
import proofs.«120539_j61881888800780_1_alg».proof.Proof.RefReadP
import proofs.«120539_j61881888800780_1_alg».proof.Proof.LibRowsProduct
import proofs.«120539_j61881888800780_1_alg».proof.Proof.LibLayerNormRows
import Idealize.ShloMosaic.Lib.ValueIdx

noncomputable section

namespace Cert.ReferenceIdeal.RefSpec

open Cert.ReferenceIdeal Cert.ReferenceIdeal.Gen Cert.ReferenceIdeal.ReadP
open Idealize.ShloMosaic Idealize.ShloMosaic.TcCoe Idealize.ShloMosaic.ValueIdx Idealize.SL.Sem

/-- The divisor 128, the stabiliser (the f32 nearest 1e-5) and the rectifier's zero, as the programs spell them. -/
abbrev c128 : EReal := Ideal.ofBits .f32 0x43000000#32
abbrev ceps : EReal := Ideal.ofBits .f32 0x3727C5AC#32
abbrev czero : EReal := Ideal.ofBits .f32 0x00000000#32

/-- Bias, layer normalisation and rectifier of every row of an [n, 128] array. -/
abbrev norm {n : Nat} (A : FVec Ideal ⟨2, ![n, 128]⟩ .f32) (b g be : FVec Ideal ⟨2, ![1, 128]⟩ .f32) :
    FVec Ideal ⟨2, ![n, 128]⟩ .f32 := LayerNormRows.lnrelu c128 ceps czero A b g be

/-- The aggregation over the edges, given the source and target index vectors: never opened. -/
def aggOf (h : (⟨S50000x128, .f32⟩ : BufTy).Contents (Elt Ideal)) (src dst : (⟨S800000, .i32⟩ : BufTy).Contents (Elt Ideal))
    (ew : (⟨S800000, .f32⟩ : BufTy).Contents (Elt Ideal)) : (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (mulf (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x128 ![0, 1] bcast_S800000x1_S800000x128_0_1
        (broadcastInDim S800000x1 ![0] bcast_S800000_S800000x1_0 ew)))

variable (x0 : (⟨S50000x128, .f32⟩ : BufTy).Contents (Elt Ideal)) (x1 : (⟨S2x800000, .i32⟩ : BufTy).Contents (Elt Ideal))
  (x2 : (⟨S800000, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 x7 x8 x9 x10 : (⟨S128, .f32⟩ : BufTy).Contents (Elt Ideal))

/-- The aggregation from the edge list [2, 800000]: its first row the sources, its second the targets. -/
def agg (h : (⟨S50000x128, .f32⟩ : BufTy).Contents (Elt Ideal)) : (⟨S50000x128, .f32⟩ : BufTy).Contents (Elt Ideal) :=
  aggOf h (val_main_v1 (F := Ideal) x1) (val_main_v3 (F := Ideal) x1) x2

/-- The whole network. -/
def net : (⟨S50000x128, .f32⟩ : BufTy).Contents (Elt Ideal) :=
  norm (agg x1 x2 (RowsProduct.prod 50000 128 128
      (norm (agg x1 x2 (RowsProduct.prod 50000 128 128 x0 x3)) (LayerNormRows.rowOf x4) (LayerNormRows.rowOf x7)
        (LayerNormRows.rowOf x8)) x5))
    (LayerNormRows.rowOf x6) (LayerNormRows.rowOf x9) (LayerNormRows.rowOf x10)

end Cert.ReferenceIdeal.RefSpec

end
-- ==== Proof.RefSpec.lean ====
/-
  The reference program's result is the network of RefDefs.lean.

  Its normalisation stages are read entry by entry through the read-at-an-index lemmas of each operation; its products
  are the host's dot_general; its aggregations are the closed term `aggOf` by definition.
-/
import proofs.«120539_j61881888800780_1_alg».proof.Proof.RefDefs

noncomputable section

namespace Cert.ReferenceIdeal.RefSpec

open Cert.ReferenceIdeal Cert.ReferenceIdeal.Gen Cert.ReferenceIdeal.ReadP
open Idealize.ShloMosaic Idealize.ShloMosaic.TcCoe Idealize.ShloMosaic.ValueIdx Idealize.SL.Sem

variable (x0 : (⟨S50000x128, .f32⟩ : BufTy).Contents (Elt Ideal)) (x1 : (⟨S2x800000, .i32⟩ : BufTy).Contents (Elt Ideal))
  (x2 : (⟨S800000, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 x7 x8 x9 x10 : (⟨S128, .f32⟩ : BufTy).Contents (Elt Ideal))

/-! ## Layer 1: the reference's bias, normalisation and rectifier, stage by stage at coordinates -/

/-- The biased features at (r, k). -/
theorem biased1 (r : Fin 50000) (k : Fin 128) :
    val_main_v20 (F := Ideal) x0 x1 x2 x3 x4 (ix2 r k) = (val_main_v17 (F := Ideal) x0 x1 x2 x3 (ix2 r k) : EReal) + x4 (ix1 k) := by
  rw [val_main_v20_apply, val_main_v19_apply, val_main_v18_apply,
    show idx_main_v18 (idx_main_v19 (ix2 r k)) = ix1 k from funext fun a => Fin.ext (by match a with | ⟨0, _⟩ => rfl)]
  rfl

/-- The kept-axis mean of row r. -/
theorem mean1 (r : Fin 50000) (u : Fin 1) :
    val_main_v24 (F := Ideal) x0 x1 x2 x3 x4 (ix2 r u) = LayerNormRows.rowMean c128 (fun k => (val_main_v17 (F := Ideal) x0 x1 x2 x3 (ix2 r k) : EReal) + x4 (ix1 k)) := by
  rw [val_main_v24_apply, val_main_v22_apply, val_main_v21_apply, val_main_v23_apply, val_main_cst_2_apply,
    val_main_cst_1_apply]
  have hk : ∀ k : Fin 128, val_main_v20 (F := Ideal) x0 x1 x2 x3 x4 (idx_main_v21 (idx_main_v22 (ix2 r u)) k)
      = (val_main_v17 (F := Ideal) x0 x1 x2 x3 (ix2 r k) : EReal) + x4 (ix1 k) := fun k => by
    rw [show idx_main_v21 (idx_main_v22 (ix2 r u)) k = ix2 r k from funext fun a => Fin.ext (by match a with | ⟨0, _⟩ => rfl | ⟨1, _⟩ => rfl), biased1 x0 x1 x2 x3 x4 r k]
  rw [Finset.sum_congr rfl fun k _ => hk k, Ideal.ofBits_def, Ideal.ofBits_zero_f32, zero_add]
  rfl

/-- The kept-axis variance of row r. -/
theorem var1 (r : Fin 50000) (u : Fin 1) :
    val_main_v31 (F := Ideal) x0 x1 x2 x3 x4 (ix2 r u) = LayerNormRows.rowVar c128 (fun k => (val_main_v17 (F := Ideal) x0 x1 x2 x3 (ix2 r k) : EReal) + x4 (ix1 k)) := by
  rw [val_main_v31_apply, val_main_v29_apply, val_main_v28_apply, val_main_v30_apply, val_main_cst_4_apply,
    val_main_cst_3_apply]
  have hk : ∀ k : Fin 128, val_main_v27 (F := Ideal) x0 x1 x2 x3 x4 (idx_main_v28 (idx_main_v29 (ix2 r u)) k)
      = ((fun k => (val_main_v17 (F := Ideal) x0 x1 x2 x3 (ix2 r k) : EReal) + x4 (ix1 k)) k - LayerNormRows.rowMean c128 (fun k => (val_main_v17 (F := Ideal) x0 x1 x2 x3 (ix2 r k) : EReal) + x4 (ix1 k))) * ((fun k => (val_main_v17 (F := Ideal) x0 x1 x2 x3 (ix2 r k) : EReal) + x4 (ix1 k)) k - LayerNormRows.rowMean c128 (fun k => (val_main_v17 (F := Ideal) x0 x1 x2 x3 (ix2 r k) : EReal) + x4 (ix1 k))) := fun k => by
    rw [show idx_main_v28 (idx_main_v29 (ix2 r u)) k = ix2 r k from funext fun a => Fin.ext (by match a with | ⟨0, _⟩ => rfl | ⟨1, _⟩ => rfl),
      val_main_v27_apply, val_main_v26_apply, val_main_v25_apply,
      show idx_main_v25 (ix2 r k) = ix2 r (0 : Fin 1) from funext fun a => Fin.ext (by match a with | ⟨0, _⟩ => rfl | ⟨1, _⟩ => rfl),
      mean1 x0 x1 x2 x3 x4 r 0, biased1 x0 x1 x2 x3 x4 r k]
    rfl
  rw [Finset.sum_congr rfl fun k _ => hk k, Ideal.ofBits_def, Ideal.ofBits_zero_f32, zero_add]
  rfl

/-- The layer's output at (r, c). -/
theorem out1 (r : Fin 50000) (c : Fin 128) :
    val_main_v45 (F := Ideal) x0 x1 x2 x3 x4 x7 x8 (ix2 r c)
      = LayerNormRows.normEntry c128 ceps czero (fun k => (val_main_v17 (F := Ideal) x0 x1 x2 x3 (ix2 r k) : EReal) + x4 (ix1 k)) (fun k => x7 (ix1 k)) (fun k => x8 (ix1 k)) c := by
  rw [val_main_v45_apply, val_main_call0_v0_apply, val_main_call0_cst_apply, val_main_v44_apply, val_main_v43_apply,
    val_main_v42_apply, val_main_v41_apply, val_main_v40_apply, val_main_v39_apply, val_main_v38_apply,
    val_main_v37_apply, val_main_v36_apply, val_main_v35_apply, val_main_v34_apply, val_main_cst_5_apply,
    val_main_v33_apply, val_main_v32_apply,
    show idx_main_v42 (idx_main_v43 (ix2 r c)) = ix1 c from funext fun a => Fin.ext (by match a with | ⟨0, _⟩ => rfl),
    show idx_main_v39 (idx_main_v40 (ix2 r c)) = ix1 c from funext fun a => Fin.ext (by match a with | ⟨0, _⟩ => rfl),
    show idx_main_v37 (ix2 r c) = ix2 r (0 : Fin 1) from funext fun a => Fin.ext (by match a with | ⟨0, _⟩ => rfl | ⟨1, _⟩ => rfl),
    show idx_main_v32 (ix2 r c) = ix2 r (0 : Fin 1) from funext fun a => Fin.ext (by match a with | ⟨0, _⟩ => rfl | ⟨1, _⟩ => rfl),
    var1 x0 x1 x2 x3 x4 r 0, mean1 x0 x1 x2 x3 x4 r 0, biased1 x0 x1 x2 x3 x4 r c]
  rfl

/-- The layer's output array is the row-wise function of the aggregated features and the three vectors as rows. -/
theorem layer1 :
    val_main_v45 (F := Ideal) x0 x1 x2 x3 x4 x7 x8 = norm (val_main_v17 (F := Ideal) x0 x1 x2 x3) (LayerNormRows.rowOf x4) (LayerNormRows.rowOf x7) (LayerNormRows.rowOf x8) :=
  funext fun i => by
    obtain ⟨r, c, rfl⟩ : ∃ (r : Fin 50000) (c : Fin 128), i = ix2 r c := ⟨i 0, i 1, eq_ix2 i⟩
    exact out1 x0 x1 x2 x3 x4 x7 x8 r c

/-! ## Layer 2: the reference's bias, normalisation and rectifier, stage by stage at coordinates -/

/-- The biased features at (r, k). -/
theorem biased2 (r : Fin 50000) (k : Fin 128) :
    val_main_v62 (F := Ideal) x0 x1 x2 x3 x4 x5 x6 x7 x8 (ix2 r k) = (val_main_v59 (F := Ideal) x0 x1 x2 x3 x4 x5 x7 x8 (ix2 r k) : EReal) + x6 (ix1 k) := by
  rw [val_main_v62_apply, val_main_v61_apply, val_main_v60_apply,
    show idx_main_v60 (idx_main_v61 (ix2 r k)) = ix1 k from funext fun a => Fin.ext (by match a with | ⟨0, _⟩ => rfl)]
  rfl

/-- The kept-axis mean of row r. -/
theorem mean2 (r : Fin 50000) (u : Fin 1) :
    val_main_v66 (F := Ideal) x0 x1 x2 x3 x4 x5 x6 x7 x8 (ix2 r u) = LayerNormRows.rowMean c128 (fun k => (val_main_v59 (F := Ideal) x0 x1 x2 x3 x4 x5 x7 x8 (ix2 r k) : EReal) + x6 (ix1 k)) := by
  rw [val_main_v66_apply, val_main_v64_apply, val_main_v63_apply, val_main_v65_apply, val_main_cst_10_apply,
    val_main_cst_9_apply]
  have hk : ∀ k : Fin 128, val_main_v62 (F := Ideal) x0 x1 x2 x3 x4 x5 x6 x7 x8 (idx_main_v63 (idx_main_v64 (ix2 r u)) k)
      = (val_main_v59 (F := Ideal) x0 x1 x2 x3 x4 x5 x7 x8 (ix2 r k) : EReal) + x6 (ix1 k) := fun k => by
    rw [show idx_main_v63 (idx_main_v64 (ix2 r u)) k = ix2 r k from funext fun a => Fin.ext (by match a with | ⟨0, _⟩ => rfl | ⟨1, _⟩ => rfl), biased2 x0 x1 x2 x3 x4 x5 x6 x7 x8 r k]
  rw [Finset.sum_congr rfl fun k _ => hk k, Ideal.ofBits_def, Ideal.ofBits_zero_f32, zero_add]
  rfl

/-- The kept-axis variance of row r. -/
theorem var2 (r : Fin 50000) (u : Fin 1) :
    val_main_v73 (F := Ideal) x0 x1 x2 x3 x4 x5 x6 x7 x8 (ix2 r u) = LayerNormRows.rowVar c128 (fun k => (val_main_v59 (F := Ideal) x0 x1 x2 x3 x4 x5 x7 x8 (ix2 r k) : EReal) + x6 (ix1 k)) := by
  rw [val_main_v73_apply, val_main_v71_apply, val_main_v70_apply, val_main_v72_apply, val_main_cst_12_apply,
    val_main_cst_11_apply]
  have hk : ∀ k : Fin 128, val_main_v69 (F := Ideal) x0 x1 x2 x3 x4 x5 x6 x7 x8 (idx_main_v70 (idx_main_v71 (ix2 r u)) k)
      = ((fun k => (val_main_v59 (F := Ideal) x0 x1 x2 x3 x4 x5 x7 x8 (ix2 r k) : EReal) + x6 (ix1 k)) k - LayerNormRows.rowMean c128 (fun k => (val_main_v59 (F := Ideal) x0 x1 x2 x3 x4 x5 x7 x8 (ix2 r k) : EReal) + x6 (ix1 k))) * ((fun k => (val_main_v59 (F := Ideal) x0 x1 x2 x3 x4 x5 x7 x8 (ix2 r k) : EReal) + x6 (ix1 k)) k - LayerNormRows.rowMean c128 (fun k => (val_main_v59 (F := Ideal) x0 x1 x2 x3 x4 x5 x7 x8 (ix2 r k) : EReal) + x6 (ix1 k))) := fun k => by
    rw [show idx_main_v70 (idx_main_v71 (ix2 r u)) k = ix2 r k from funext fun a => Fin.ext (by match a with | ⟨0, _⟩ => rfl | ⟨1, _⟩ => rfl),
      val_main_v69_apply, val_main_v68_apply, val_main_v67_apply,
      show idx_main_v67 (ix2 r k) = ix2 r (0 : Fin 1) from funext fun a => Fin.ext (by match a with | ⟨0, _⟩ => rfl | ⟨1, _⟩ => rfl),
      mean2 x0 x1 x2 x3 x4 x5 x6 x7 x8 r 0, biased2 x0 x1 x2 x3 x4 x5 x6 x7 x8 r k]
    rfl
  rw [Finset.sum_congr rfl fun k _ => hk k, Ideal.ofBits_def, Ideal.ofBits_zero_f32, zero_add]
  rfl

/-- The layer's output at (r, c). -/
theorem out2 (r : Fin 50000) (c : Fin 128) :
    val_main_v87 (F := Ideal) x0 x1 x2 x3 x4 x5 x6 x7 x8 x9 x10 (ix2 r c)
      = LayerNormRows.normEntry c128 ceps czero (fun k => (val_main_v59 (F := Ideal) x0 x1 x2 x3 x4 x5 x7 x8 (ix2 r k) : EReal) + x6 (ix1 k)) (fun k => x9 (ix1 k)) (fun k => x10 (ix1 k)) c := by
  rw [val_main_v87_apply, val_main_call1_v0_apply, val_main_call1_cst_apply, val_main_v86_apply, val_main_v85_apply,
    val_main_v84_apply, val_main_v83_apply, val_main_v82_apply, val_main_v81_apply, val_main_v80_apply,
    val_main_v79_apply, val_main_v78_apply, val_main_v77_apply, val_main_v76_apply, val_main_cst_13_apply,
    val_main_v75_apply, val_main_v74_apply,
    show idx_main_v84 (idx_main_v85 (ix2 r c)) = ix1 c from funext fun a => Fin.ext (by match a with | ⟨0, _⟩ => rfl),
    show idx_main_v81 (idx_main_v82 (ix2 r c)) = ix1 c from funext fun a => Fin.ext (by match a with | ⟨0, _⟩ => rfl),
    show idx_main_v79 (ix2 r c) = ix2 r (0 : Fin 1) from funext fun a => Fin.ext (by match a with | ⟨0, _⟩ => rfl | ⟨1, _⟩ => rfl),
    show idx_main_v74 (ix2 r c) = ix2 r (0 : Fin 1) from funext fun a => Fin.ext (by match a with | ⟨0, _⟩ => rfl | ⟨1, _⟩ => rfl),
    var2 x0 x1 x2 x3 x4 x5 x6 x7 x8 r 0, mean2 x0 x1 x2 x3 x4 x5 x6 x7 x8 r 0, biased2 x0 x1 x2 x3 x4 x5 x6 x7 x8 r c]
  rfl

/-- The layer's output array is the row-wise function of the aggregated features and the three vectors as rows. -/
theorem layer2 :
    val_main_v87 (F := Ideal) x0 x1 x2 x3 x4 x5 x6 x7 x8 x9 x10 = norm (val_main_v59 (F := Ideal) x0 x1 x2 x3 x4 x5 x7 x8) (LayerNormRows.rowOf x6) (LayerNormRows.rowOf x9) (LayerNormRows.rowOf x10) :=
  funext fun i => by
    obtain ⟨r, c, rfl⟩ : ∃ (r : Fin 50000) (c : Fin 128), i = ix2 r c := ⟨i 0, i 1, eq_ix2 i⟩
    exact out2 x0 x1 x2 x3 x4 x5 x6 x7 x8 x9 x10 r c

/-! ## The stages between: products and aggregations -/

theorem prod1 : val_main_v4 (F := Ideal) x0 x3 = RowsProduct.prod 50000 128 128 x0 x3 :=
  RowsProduct.hostDot_eq 50000 128 128 x0 x3

theorem agg1 : val_main_v17 (F := Ideal) x0 x1 x2 x3 = agg x1 x2 (val_main_v4 (F := Ideal) x0 x3) := rfl

theorem prod2 : val_main_v46 (F := Ideal) x0 x1 x2 x3 x4 x5 x7 x8 = RowsProduct.prod 50000 128 128 (val_main_v45 (F := Ideal) x0 x1 x2 x3 x4 x7 x8) x5 :=
  RowsProduct.hostDot_eq 50000 128 128 (val_main_v45 (F := Ideal) x0 x1 x2 x3 x4 x7 x8) x5

theorem agg2 : val_main_v59 (F := Ideal) x0 x1 x2 x3 x4 x5 x7 x8 = agg x1 x2 (val_main_v46 (F := Ideal) x0 x1 x2 x3 x4 x5 x7 x8) := rfl

/-- The reference's result is the network. -/
theorem result_eq : val_main_v87 (F := Ideal) x0 x1 x2 x3 x4 x5 x6 x7 x8 x9 x10 = net x0 x1 x2 x3 x4 x5 x6 x7 x8 x9 x10 := by
  rw [layer2, agg2, prod2, layer1, agg1, prod1]
  rfl

end Cert.ReferenceIdeal.RefSpec

end
-- ==== Proof.KernelRun.lean ====
/-
  The idealized kernel's run with its result named.

  @main is seven segments: a stretch of host operations, the first matrix product's pallas_call, the stretch holding the
  first gather / scatter-add, the first normalisation's call, the second product's call, the second gather / scatter-add
  stretch, the second normalisation's call. The contents of every buffer at each boundary are a fold through these
  segments from the launch memory (`Gen.W1` … `Gen.W7`). Every weakly fair execution terminates with every unscoped buffer
  at the last boundary's contents `Gen.W7`; read at the arguments this is the frame claim, and read at the result buffer
  it says what the program returns: `W7` at `main_v39`, the array the last call's write-backs leave.
-/
import proofs.«120539_j61881888800780_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_value : θ_run defs (onTc (τ := τ) (main (F := F))) ⟨m, fun _ => 0, ρ⟩ (fun r => ∀ c : Dev nD,
      r.2.mem ((c.tc : Thread nD τ).loc main_v39) = W7 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v39 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.RunValue

end
-- ==== Proof.Lin0.lean ====
/-
  The first matrix product's pallas_call, read as one function of whole arrays.

  The call tiles the 50000 rows of its left operand over a grid of 10 points, 5000 rows each; every point holds the whole
  128 x 128 right operand. Point t multiplies rows 5000 t … 5000 t + 4999 by the right operand (both cast to bf16, which
  at the exact instance changes nothing, into a zero accumulator) and writes the 5000 x 128 product back to the same rows
  of the result. An entry of a matrix product reads one row of the left operand and one column of the right one, so what
  point t writes back is block t of the ONE product of the whole arrays; the ten blocks tile the result; so after the call
  the result array is that product, whatever the buffers held when the call was entered (`V`).
-/
import proofs.«120539_j61881888800780_1_alg».proof.Proof.Gen.KernelIdeal.Frame
import proofs.«120539_j61881888800780_1_alg».proof.Proof.LibRowsProduct
import Idealize.ShloMosaic.Lib.Pipeline.Value
import Idealize.ShloMosaic.Lib.ValueIdx

set_option maxRecDepth 16384

noncomputable section

namespace Cert.KernelIdeal.Lin0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks. -/
theorem pay_eq (x0 : Vec Ideal S5000x128 .f32) (x1 : Vec Ideal S128x128 .f32) :
    k0_pay1 (F := Ideal) x0 x1 = RowsProduct.prod 5000 128 128 x0 x1 := by
  unfold k0_pay1
  exact RowsProduct.matmulBf16_eq 5000 128 128 x0 x1 _

/-- The index maps over the grid: the left operand's block and the result's block move together down the rows, the
    right operand stays, and point t works on row block t. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the whole arrays. -/
theorem flushed_eq (c : Dev nD) (t : Fin cfg0.N) :
    (dat0 V c).flushed 2 t
      = ((cfg0.win 2).blk t).view.read (Elt Ideal) (RowsProduct.prod 50000 128 128 (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [pay_eq]
  obtain ⟨e0, e1, e2, e3, e4, e5⟩ := idx_facts t
  funext j
  refine RowsProduct.prod_rows 50000 128 128 (V c main_arg0) (V c main_arg3) (iblk0 V c 0 t) (iblk0 V c 1 t) j
    (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg3 (((cfg0.win 1).blk t).view.emb (ix2 k (j 1))) = V c main_arg3 (ix2 k ((((cfg0.win 2).blk t).view.emb j) 1))
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v4).slice (win0_2.rect t)).set ↔ _
  rw [View.set_slice_whole, Rect.mem_set_unit]
  exact Iff.rfl

/-- The ten blocks tile the result: row r is in the block of point r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_2 _, ?_⟩
  rw [mem_blk]
  obtain ⟨e0, e1, e2, e3, e4, e5⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- After the call the result array is the product of the arrays the call found. -/
theorem final (c : Dev nD) :
    (dat0 V c).arrAt 2 cfg0.N = RowsProduct.prod 50000 128 128 (V c main_arg0) (V c main_arg3) :=
  (dat0 V c).arrAt_eq_of_cover 2 _ (fun t _ => flushed_eq V c t) cover

end Cert.KernelIdeal.Lin0

end
-- ==== Proof.Lin2.lean ====
/-
  The second matrix product's pallas_call, read as one function of whole arrays.

  The call tiles the 50000 rows of its left operand over a grid of 10 points, 5000 rows each; every point holds the whole
  128 x 128 right operand. Point t multiplies rows 5000 t … 5000 t + 4999 by the right operand (both cast to bf16, which
  at the exact instance changes nothing, into a zero accumulator) and writes the 5000 x 128 product back to the same rows
  of the result. An entry of a matrix product reads one row of the left operand and one column of the right one, so what
  point t writes back is block t of the ONE product of the whole arrays; the ten blocks tile the result; so after the call
  the result array is that product, whatever the buffers held when the call was entered (`V`).
-/
import proofs.«120539_j61881888800780_1_alg».proof.Proof.Gen.KernelIdeal.Frame
import proofs.«120539_j61881888800780_1_alg».proof.Proof.LibRowsProduct
import Idealize.ShloMosaic.Lib.Pipeline.Value
import Idealize.ShloMosaic.Lib.ValueIdx

set_option maxRecDepth 16384

noncomputable section

namespace Cert.KernelIdeal.Lin2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks. -/
theorem pay_eq (x0 : Vec Ideal S5000x128 .f32) (x1 : Vec Ideal S128x128 .f32) :
    k2_pay1 (F := Ideal) x0 x1 = RowsProduct.prod 5000 128 128 x0 x1 := by
  unfold k2_pay1
  simp only [shapeCast_self]
  exact RowsProduct.matmulBf16_eq 5000 128 128 x0 x1 _

/-- The index maps over the grid: the left operand's block and the result's block move together down the rows, the
    right operand stays, and point t works on row block t. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the whole arrays. -/
theorem flushed_eq (c : Dev nD) (t : Fin cfg2.N) :
    (dat2 V c).flushed 2 t
      = ((cfg2.win 2).blk t).view.read (Elt Ideal) (RowsProduct.prod 50000 128 128 (V c main_v21) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  rw [pay_eq]
  obtain ⟨e0, e1, e2, e3, e4, e5⟩ := idx_facts t
  funext j
  refine RowsProduct.prod_rows 50000 128 128 (V c main_v21) (V c main_arg5) (iblk2 V c 0 t) (iblk2 V c 1 t) j
    (((cfg2.win 2).blk t).view.emb j) (fun k => ?_) (fun k => ?_)
  · show V c main_v21 (((cfg2.win 0).blk t).view.emb (ix2 (j 0) k)) = V c main_v21 (ix2 ((((cfg2.win 2).blk t).view.emb j) 0) k)
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c main_arg5 (((cfg2.win 1).blk t).view.emb (ix2 k (j 1))) = V c main_arg5 (ix2 k ((((cfg2.win 2).blk t).view.emb j) 1))
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the result is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v22).slice (win2_2.rect t)).set ↔ _
  rw [View.set_slice_whole, Rect.mem_set_unit]
  exact Iff.rfl

/-- The ten blocks tile the result: row r is in the block of point r / 5000. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_2 _, ?_⟩
  rw [mem_blk]
  obtain ⟨e0, e1, e2, e3, e4, e5⟩ := idx_facts ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 128 ≤ (i 1).val ∧ (i 1).val < win2_2.index _ (1 : Fin 2) * 128 + 128
    rw [e5]; omega

/-- After the call the result array is the product of the arrays the call found. -/
theorem final (c : Dev nD) :
    (dat2 V c).arrAt 2 cfg2.N = RowsProduct.prod 50000 128 128 (V c main_v21) (V c main_arg5) :=
  (dat2 V c).arrAt_eq_of_cover 2 _ (fun t _ => flushed_eq V c t) cover

end Cert.KernelIdeal.Lin2

end
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.LibRowBroadcast.lean ====
/-
  A row [1, b] broadcast along the rows of an [a, b] array, read at coordinates: the entry (p, c) is the row's entry
  (0, c). (The column counterpart, an [a, 1] column broadcast to [a, b], reads the column's entry (p, 0).)
-/
import Idealize.ShloMosaic.Lib.ValueLayout
import Idealize.ShloMosaic.Lib.Pipeline.Value

namespace RowBroadcast

open Idealize.ShloMosaic Idealize.ShloMosaic.ValueIdx

/-- A [1, b] row broadcast to [a, b] reads, at (p, c), the row's entry at column c. -/
theorem broadcastTo_1b_ab_apply {α : Type} {a b : ℕ} (v : (⟨2, ![1, b]⟩ : Shape).Idx → α)
    (h : (⟨2, ![1, b]⟩ : Shape).Broadcasts ⟨2, ![a, b]⟩) (hb : b ≠ 1) (p : Fin a) (c : Fin b) :
    broadcastTo ⟨2, ![a, b]⟩ v h (ix2 p c) = v (ix2 (0 : Fin 1) c) := by
  refine broadcastTo_apply v h (ix2 p c) (ix2 (0 : Fin 1) c) fun ax => ?_
  match ax with
  | ⟨0, _⟩ => show (0 : Nat) = if (1 : Nat) = 1 then 0 else _; rw [if_pos rfl]
  | ⟨1, _⟩ => show c.val = if b = 1 then 0 else c.val; rw [if_neg hb]

end RowBroadcast
-- ==== Proof.Ln1.lean ====
/-
  The first normalisation's pallas_call, read as one function of whole arrays.

  The call tiles the 50000 rows of the aggregated features over a grid of 10 points, 5000 rows each; every point also
  holds the bias, the scale and the shift, each a [1, 128] row. Point t adds the bias to its rows, normalises each row
  by its own mean and variance (the row's sum over its 128 entries divided by 128; the reciprocal square root of the
  variance plus the stabiliser), scales, shifts, takes the maximum with zero, and writes the 5000 x 128 result back to
  the same rows. Each entry of the result reads ONE row of the features. So what point t writes back is block t of the
  ONE row-wise function of the whole arrays; the ten blocks tile the result; so after the call the result array is that
  function of the arrays the call found (`V`).
-/
import proofs.«120539_j61881888800780_1_alg».proof.Proof.Gen.KernelIdeal.Frame
import proofs.«120539_j61881888800780_1_alg».proof.Proof.LibLayerNormRows
import proofs.«120539_j61881888800780_1_alg».proof.Proof.LibKeepdims
import proofs.«120539_j61881888800780_1_alg».proof.Proof.LibRowBroadcast
import Idealize.ShloMosaic.Lib.Pipeline.Value
import Idealize.ShloMosaic.Lib.ValueIdx

set_option maxRecDepth 16384

noncomputable section

namespace Cert.KernelIdeal.Ln1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The divisor 128, the stabiliser (the f32 nearest 1e-5) and the rectifier's zero, as the programs spell them. -/
abbrev c128 : EReal := Ideal.ofBits .f32 0x43000000#32
abbrev ceps : EReal := Ideal.ofBits .f32 0x3727C5AC#32
abbrev czero : EReal := Ideal.ofBits .f32 0x00000000#32

/-- The row-wise function on [n, 128] arrays with [1, 128] rows for the bias, the scale and the shift. -/
abbrev norm {n : Nat} (A : FVec Ideal ⟨2, ![n, 128]⟩ .f32) (b g be : FVec Ideal ⟨2, ![1, 128]⟩ .f32) :
    FVec Ideal ⟨2, ![n, 128]⟩ .f32 := LayerNormRows.lnrelu c128 ceps czero A b g be

variable (V : (c : Dev nD) → (b : Ref sig .tc) → Buf (Elt Ideal) ((c : Thread nD τ).loc b))

theorem hz : (![0, 0] : Fin 2 → Nat) = fun _ => 0 := funext fun a => by fin_cases a <;> rfl

theorem rsqrt_apply {s : Shape} (x : FVec Ideal s .f32) (i : s.Idx) : rsqrt x i = Ideal.rsqrt (x i) := rfl

/-- The body's stored value at row p, column q: the row-wise function of its loaded blocks. -/
theorem pay_apply (x0 : Vec Ideal S5000x128 .f32) (x1 x2 x3 : Vec Ideal S1x128 .f32) (p : Fin 5000) (q : Fin 128) :
    k1_pay1 (F := Ideal) x0 x1 x2 x3 (ix2 p q) = norm x0 x1 x2 x3 (ix2 p q) := by
  unfold k1_pay1
  have hsum : ∀ (h : FVec Ideal S5000x128 .f32) hφ hacc,
      shapeCast S5000x1 (multiReduction .add (@List.cons (Fin 2) (1 : Fin S5000x128.rank) (@List.nil (Fin 2))) S5000 h (0x00000000#32)
          reduces_S5000x128_S5000 hφ hacc)
        shapeCasts_S5000_S5000x1 (ix2 p (0 : Fin 1)) = ∑ k : Fin 128, h (ix2 p k) :=
    fun h hφ hacc => Keepdims.rowSumKeep_apply (a := 5000) (b := 128) h _ reduces_S5000x128_S5000 hφ hacc
      shapeCasts_S5000_S5000x1 p 0
  -- every operation read at the index (p, q); each kept-axis sum is the sum over the row's 128 entries (`hsum`)
  repeat (first
    | erw [hsum]
    | simp only [shapeCast_self, maximumf_apply, addf_apply, mulf_apply, subf_apply, divf_apply, rsqrt_apply,
      broadcast_apply, Keepdims.broadcastTo_a1_ab_apply,
      fun (v : (⟨2, ![1, 128]⟩ : Shape).Idx → Ideal .f32) h (p : Fin 5000) (c : Fin 128) =>
        RowBroadcast.broadcastTo_1b_ab_apply (a := 5000) (b := 128) v h (by decide) p c])
  rfl

theorem pay_eq (x0 : Vec Ideal S5000x128 .f32) (x1 x2 x3 : Vec Ideal S1x128 .f32) :
    k1_pay1 (F := Ideal) x0 x1 x2 x3 = norm x0 x1 x2 x3 :=
  funext fun j => by rw [eq_ix2 j]; exact pay_apply x0 x1 x2 x3 (j 0) (j 1)

/-- The index maps over the grid: the features' block and the result's block move together down the rows, the three
    rows stay, and point t works on row block t. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the row-wise function of the whole arrays. -/
theorem flushed_eq (c : Dev nD) (t : Fin cfg1.N) :
    (dat1 V c).flushed 4 t
      = ((cfg1.win 4).blk t).view.read (Elt Ideal) (norm (V c main_v17) (V c main_v18) (V c main_v19) (V c main_v20)) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz]
  rw [pay_eq]
  obtain ⟨e0, e1, e2, e3, e4, e5, e6, e7, e8, e9⟩ := idx_facts t
  funext j
  refine LayerNormRows.lnrelu_rows c128 ceps czero (V c main_v17) (iblk1 V c 0 t) (V c main_v18) (V c main_v19) (V c main_v20)
    (iblk1 V c 1 t) (iblk1 V c 2 t) (iblk1 V c 3 t) j (((cfg1.win 4).blk t).view.emb j)
    (fun k => ?_) (fun k => ?_) (fun k => ?_) (fun k => ?_) ?_
  · show V c main_v17 (((cfg1.win 0).blk t).view.emb (ix2 (j 0) k)) = V c main_v17 (ix2 ((((cfg1.win 4).blk t).view.emb j) 0) k)
    refine congrArg _ (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  · show V c main_v18 (((cfg1.win 1).blk t).view.emb (ix2 (0 : Fin 1) k)) = V c main_v18 (ix2 (0 : Fin 1) k)
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · show V c main_v19 (((cfg1.win 2).blk t).view.emb (ix2 (0 : Fin 1) k)) = V c main_v19 (ix2 (0 : Fin 1) k)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  · show V c main_v20 (((cfg1.win 3).blk t).view.emb (ix2 (0 : Fin 1) k)) = V c main_v20 (ix2 (0 : Fin 1) k)
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  · refine Fin.ext ?_
    show (j 1).val = win1_4.index t (1 : Fin 2) * 128 + 1 * (j 1).val
    omega

/-- An index of the result is in point t's block iff each coordinate is in the block's range on its axis. -/
theorem mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v21).slice (win1_4.rect t)).set ↔ _
  rw [View.set_slice_whole, Rect.mem_set_unit]
  exact Iff.rfl

/-- The ten blocks tile the result: row r is in the block of point r / 5000. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_4 _, ?_⟩
  rw [mem_blk]
  obtain ⟨e0, e1, e2, e3, e4, e5, e6, e7, e8, e9⟩ := idx_facts ⟨(i 0).val / 5000, by rw [hN]; omega⟩
  intro a
  match a with
  | ⟨0, _⟩ =>
    show win1_4.index _ (0 : Fin 2) * 5000 ≤ (i 0).val ∧ (i 0).val < win1_4.index _ (0 : Fin 2) * 5000 + 5000
    rw [e8]; show (i 0).val / 5000 * 5000 ≤ (i 0).val ∧ (i 0).val < (i 0).val / 5000 * 5000 + 5000; omega
  | ⟨1, _⟩ =>
    show win1_4.index _ (1 : Fin 2) * 128 ≤ (i 1).val ∧ (i 1).val < win1_4.index _ (1 : Fin 2) * 128 + 128
    rw [e9]; omega

/-- After the call the result array is the row-wise function of the arrays the call found. -/
theorem final (c : Dev nD) :
    (dat1 V c).arrAt 4 cfg1.N = norm (V c main_v17) (V c main_v18) (V c main_v19) (V c main_v20) :=
  (dat1 V c).arrAt_eq_of_cover 4 _ (fun t _ => flushed_eq V c t) cover

end Cert.KernelIdeal.Ln1

end
-- ==== Proof.Ln3.lean ====
/-
  The second normalisation's pallas_call, read as one function of whole arrays.

  The call tiles the 50000 rows of the aggregated features over a grid of 10 points, 5000 rows each; every point also
  holds the bias, the scale and the shift, each a [1, 128] row. Point t adds the bias to its rows, normalises each row
  by its own mean and variance (the row's sum over its 128 entries divided by 128; the reciprocal square root of the
  variance plus the stabiliser), scales, shifts, takes the maximum with zero, and writes the 5000 x 128 result back to
  the same rows. Each entry of the result reads ONE row of the features. So what point t writes back is block t of the
  ONE row-wise function of the whole arrays; the ten blocks tile the result; so after the call the result array is that
  function of the arrays the call found (`V`).
-/
import proofs.«120539_j61881888800780_1_alg».proof.Proof.Gen.KernelIdeal.Frame
import proofs.«120539_j61881888800780_1_alg».proof.Proof.LibLayerNormRows
import proofs.«120539_j61881888800780_1_alg».proof.Proof.LibKeepdims
import proofs.«120539_j61881888800780_1_alg».proof.Proof.LibRowBroadcast
import Idealize.ShloMosaic.Lib.Pipeline.Value
import Idealize.ShloMosaic.Lib.ValueIdx

set_option maxRecDepth 16384

noncomputable section

namespace Cert.KernelIdeal.Ln3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The divisor 128, the stabiliser (the f32 nearest 1e-5) and the rectifier's zero, as the programs spell them. -/
abbrev c128 : EReal := Ideal.ofBits .f32 0x43000000#32
abbrev ceps : EReal := Ideal.ofBits .f32 0x3727C5AC#32
abbrev czero : EReal := Ideal.ofBits .f32 0x00000000#32

/-- The row-wise function on [n, 128] arrays with [1, 128] rows for the bias, the scale and the shift. -/
abbrev norm {n : Nat} (A : FVec Ideal ⟨2, ![n, 128]⟩ .f32) (b g be : FVec Ideal ⟨2, ![1, 128]⟩ .f32) :
    FVec Ideal ⟨2, ![n, 128]⟩ .f32 := LayerNormRows.lnrelu c128 ceps czero A b g be

variable (V : (c : Dev nD) → (b : Ref sig .tc) → Buf (Elt Ideal) ((c : Thread nD τ).loc b))

theorem hz : (![0, 0] : Fin 2 → Nat) = fun _ => 0 := funext fun a => by fin_cases a <;> rfl

theorem rsqrt_apply {s : Shape} (x : FVec Ideal s .f32) (i : s.Idx) : rsqrt x i = Ideal.rsqrt (x i) := rfl

/-- The body's stored value at row p, column q: the row-wise function of its loaded blocks. -/
theorem pay_apply (x0 : Vec Ideal S5000x128 .f32) (x1 x2 x3 : Vec Ideal S1x128 .f32) (p : Fin 5000) (q : Fin 128) :
    k3_pay1 (F := Ideal) x0 x1 x2 x3 (ix2 p q) = norm x0 x1 x2 x3 (ix2 p q) := by
  unfold k3_pay1
  have hsum : ∀ (h : FVec Ideal S5000x128 .f32) hφ hacc,
      shapeCast S5000x1 (multiReduction .add (@List.cons (Fin 2) (1 : Fin S5000x128.rank) (@List.nil (Fin 2))) S5000 h (0x00000000#32)
          reduces_S5000x128_S5000 hφ hacc)
        shapeCasts_S5000_S5000x1 (ix2 p (0 : Fin 1)) = ∑ k : Fin 128, h (ix2 p k) :=
    fun h hφ hacc => Keepdims.rowSumKeep_apply (a := 5000) (b := 128) h _ reduces_S5000x128_S5000 hφ hacc
      shapeCasts_S5000_S5000x1 p 0
  -- every operation read at the index (p, q); each kept-axis sum is the sum over the row's 128 entries (`hsum`)
  repeat (first
    | erw [hsum]
    | simp only [shapeCast_self, maximumf_apply, addf_apply, mulf_apply, subf_apply, divf_apply, rsqrt_apply,
      broadcast_apply, Keepdims.broadcastTo_a1_ab_apply,
      fun (v : (⟨2, ![1, 128]⟩ : Shape).Idx → Ideal .f32) h (p : Fin 5000) (c : Fin 128) =>
        RowBroadcast.broadcastTo_1b_ab_apply (a := 5000) (b := 128) v h (by decide) p c])
  rfl

theorem pay_eq (x0 : Vec Ideal S5000x128 .f32) (x1 x2 x3 : Vec Ideal S1x128 .f32) :
    k3_pay1 (F := Ideal) x0 x1 x2 x3 = norm x0 x1 x2 x3 :=
  funext fun j => by rw [eq_ix2 j]; exact pay_apply x0 x1 x2 x3 (j 0) (j 1)

/-- The index maps over the grid: the features' block and the result's block move together down the rows, the three
    rows stay, and point t works on row block t. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the row-wise function of the whole arrays. -/
theorem flushed_eq (c : Dev nD) (t : Fin cfg3.N) :
    (dat3 V c).flushed 4 t
      = ((cfg3.win 4).blk t).view.read (Elt Ideal) (norm (V c main_v35) (V c main_v36) (V c main_v37) (V c main_v38)) := by
  show (cfg3.win 4).cut (grid3.coords t) ((dat3 V c).after 4 t) = _
  rw [after3_4]
  unfold out3_4
  rw [View.canon_unit_zero hz]
  simp only [View.ld_unit_zero (S := S5000x128) hz, View.ld_unit_zero (S := S1x128) hz]
  rw [pay_eq]
  obtain ⟨e0, e1, e2, e3, e4, e5, e6, e7, e8, e9⟩ := idx_facts t
  funext j
  refine LayerNormRows.lnrelu_rows c128 ceps czero (V c main_v35) (iblk3 V c 0 t) (V c main_v36) (V c main_v37) (V c main_v38)
    (iblk3 V c 1 t) (iblk3 V c 2 t) (iblk3 V c 3 t) j (((cfg3.win 4).blk t).view.emb j)
    (fun k => ?_) (fun k => ?_) (fun k => ?_) (fun k => ?_) ?_
  · show V c main_v35 (((cfg3.win 0).blk t).view.emb (ix2 (j 0) k)) = V c main_v35 (ix2 ((((cfg3.win 4).blk t).view.emb j) 0) k)
    refine congrArg _ (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * k.val = k.val; omega
  · show V c main_v36 (((cfg3.win 1).blk t).view.emb (ix2 (0 : Fin 1) k)) = V c main_v36 (ix2 (0 : Fin 1) k)
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * k.val = k.val; omega
  · show V c main_v37 (((cfg3.win 2).blk t).view.emb (ix2 (0 : Fin 1) k)) = V c main_v37 (ix2 (0 : Fin 1) k)
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * k.val = k.val; omega
  · show V c main_v38 (((cfg3.win 3).blk t).view.emb (ix2 (0 : Fin 1) k)) = V c main_v38 (ix2 (0 : Fin 1) k)
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * k.val = k.val; omega
  · refine Fin.ext ?_
    show (j 1).val = win3_4.index t (1 : Fin 2) * 128 + 1 * (j 1).val
    omega

/-- An index of the result is in point t's block iff each coordinate is in the block's range on its axis. -/
theorem mem_blk (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v39).slice (win3_4.rect t)).set ↔ _
  rw [View.set_slice_whole, Rect.mem_set_unit]
  exact Iff.rfl

/-- The ten blocks tile the result: row r is in the block of point r / 5000. -/
theorem cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  refine ⟨⟨(i 0).val / 5000, by rw [hN]; omega⟩, flush3_4 _, ?_⟩
  rw [mem_blk]
  obtain ⟨e0, e1, e2, e3, e4, e5, e6, e7, e8, e9⟩ := idx_facts ⟨(i 0).val / 5000, by rw [hN]; omega⟩
  intro a
  match a with
  | ⟨0, _⟩ =>
    show win3_4.index _ (0 : Fin 2) * 5000 ≤ (i 0).val ∧ (i 0).val < win3_4.index _ (0 : Fin 2) * 5000 + 5000
    rw [e8]; show (i 0).val / 5000 * 5000 ≤ (i 0).val ∧ (i 0).val < (i 0).val / 5000 * 5000 + 5000; omega
  | ⟨1, _⟩ =>
    show win3_4.index _ (1 : Fin 2) * 128 ≤ (i 1).val ∧ (i 1).val < win3_4.index _ (1 : Fin 2) * 128 + 128
    rw [e9]; omega

/-- After the call the result array is the row-wise function of the arrays the call found. -/
theorem final (c : Dev nD) :
    (dat3 V c).arrAt 4 cfg3.N = norm (V c main_v35) (V c main_v36) (V c main_v37) (V c main_v38) :=
  (dat3 V c).arrAt_eq_of_cover 4 _ (fun t _ => flushed_eq V c t) cover

end Cert.KernelIdeal.Ln3

end
-- ==== Proof.LibRowVector.lean ====
/-
  A vector made a row, read at coordinates.

  A bias or any per-column vector [n] often reaches a kernel as a row [1, n] (a reshape that adds a leading unit
  axis). Read at (0, q) the row's entry is the vector's entry q: in row-major order the position of (0, q) in
  [1, n] is 0 * n + q = q, the position of q in [n]. This is the row counterpart of the kept-axis column
  [a] -> [a, 1] read at (r, 0).
-/
import Idealize.ShloMosaic.Lib.ValueLayout
import Idealize.ShloMosaic.Lib.Pipeline.Value

namespace RowVector

open Idealize.ShloMosaic Idealize.ShloMosaic.ValueIdx

/-- A vector [n] cast to a row [1, n] reads, at (u, q), the vector's entry q, whatever the unit coordinate u. -/
theorem shapeCast_n_1n_apply {α : Type} {n : ℕ} (v : (⟨1, ![n]⟩ : Shape).Idx → α)
    (h : (⟨1, ![n]⟩ : Shape).ShapeCasts ⟨2, ![1, n]⟩) (u : Fin 1) (q : Fin n) :
    shapeCast ⟨2, ![1, n]⟩ v h (ix2 u q) = v (ix1 q) :=
  shapeCast_apply v h _ _ (by
    have hu : u.val = 0 := by omega
    rw [Shape.rowMajor_val_two, Shape.rowMajor_val_one]
    show q.val = u.val * n + q.val
    rw [hu, Nat.zero_mul, Nat.zero_add])

end RowVector
-- ==== Proof.KernelValue.lean ====
/-
  What the idealized kernel returns, as a function of its arguments.

  The buffer contents at each of @main's segment boundaries (`Gen.W1` … `Gen.W7`) are read one boundary at a time: a
  stretch of host operations leaves each buffer it writes at the operations' term of what it read and every other buffer
  as it was; a pallas_call leaves its result array at its whole-array function (the product, or the row-wise
  normalisation) of the arrays it was entered with and every other buffer as it was. Composed, the result buffer ends at
  the network of the argument arrays: product, aggregation over the edges, normalisation, twice. The aggregation is the
  reference's own closed term on the same operands and is never opened.
-/
import proofs.«120539_j61881888800780_1_alg».proof.Proof.KernelRun
import proofs.«120539_j61881888800780_1_alg».proof.Proof.Lin0
import proofs.«120539_j61881888800780_1_alg».proof.Proof.Lin2
import proofs.«120539_j61881888800780_1_alg».proof.Proof.Ln1
import proofs.«120539_j61881888800780_1_alg».proof.Proof.Ln3
import proofs.«120539_j61881888800780_1_alg».proof.Proof.RefDefs
import proofs.«120539_j61881888800780_1_alg».proof.Proof.LibRowVector
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo

/-- A vector [128] reshaped to a row [1, 128] is the vector laid out as a row. -/
theorem reshape_row (v : FVec Ideal ⟨1, ![128]⟩ .f32) (h : (⟨1, ![128]⟩ : Shape).ShapeCasts ⟨2, ![1, 128]⟩) :
    shapeCast ⟨2, ![1, 128]⟩ v h = LayerNormRows.rowOf v :=
  funext fun j => by
    obtain ⟨u, q, rfl⟩ : ∃ (u : Fin 1) (q : Fin 128), j = ix2 u q := ⟨j 0, j 1, eq_ix2 j⟩
    exact RowVector.shapeCast_n_1n_apply v h u q

/-! ## The three stretches of host operations, from any contents `W` -/

section Host
variable (W : Valuation τ sig (Elt Ideal))

theorem host0_v1 : StableHlo.after hostOps0 W (Proc.devRef .tc main_v1) = Cert.ReferenceIdeal.ReadP.val_main_v1 (F := Ideal) (W (Proc.devRef .tc main_arg1)) := by
  after_results; rfl
theorem host0_v3 : StableHlo.after hostOps0 W (Proc.devRef .tc main_v3) = Cert.ReferenceIdeal.ReadP.val_main_v3 (F := Ideal) (W (Proc.devRef .tc main_arg1)) := by
  after_results; rfl
theorem host0_main_arg0 : StableHlo.after hostOps0 W (Proc.devRef .tc main_arg0) = W (Proc.devRef .tc main_arg0) := by after_results
theorem host0_main_arg2 : StableHlo.after hostOps0 W (Proc.devRef .tc main_arg2) = W (Proc.devRef .tc main_arg2) := by after_results
theorem host0_main_arg3 : StableHlo.after hostOps0 W (Proc.devRef .tc main_arg3) = W (Proc.devRef .tc main_arg3) := by after_results
theorem host0_main_arg4 : StableHlo.after hostOps0 W (Proc.devRef .tc main_arg4) = W (Proc.devRef .tc main_arg4) := by after_results
theorem host0_main_arg5 : StableHlo.after hostOps0 W (Proc.devRef .tc main_arg5) = W (Proc.devRef .tc main_arg5) := by after_results
theorem host0_main_arg6 : StableHlo.after hostOps0 W (Proc.devRef .tc main_arg6) = W (Proc.devRef .tc main_arg6) := by after_results
theorem host0_main_arg7 : StableHlo.after hostOps0 W (Proc.devRef .tc main_arg7) = W (Proc.devRef .tc main_arg7) := by after_results
theorem host0_main_arg8 : StableHlo.after hostOps0 W (Proc.devRef .tc main_arg8) = W (Proc.devRef .tc main_arg8) := by after_results
theorem host0_main_arg9 : StableHlo.after hostOps0 W (Proc.devRef .tc main_arg9) = W (Proc.devRef .tc main_arg9) := by after_results
theorem host0_main_arg10 : StableHlo.after hostOps0 W (Proc.devRef .tc main_arg10) = W (Proc.devRef .tc main_arg10) := by after_results

theorem host1_v17 : StableHlo.after hostOps1 W (Proc.devRef .tc main_v17)
    = Cert.ReferenceIdeal.RefSpec.aggOf (W (Proc.devRef .tc main_v4)) (W (Proc.devRef .tc main_v1)) (W (Proc.devRef .tc main_v3)) (W (Proc.devRef .tc main_arg2)) := by
  after_results; rfl
theorem host1_v18 : StableHlo.after hostOps1 W (Proc.devRef .tc main_v18) = LayerNormRows.rowOf (W (Proc.devRef .tc main_arg4)) := by
  refine Eq.trans ?_ (reshape_row (W (Proc.devRef .tc main_arg4)) shapeCasts_S128_S1x128); after_results; rfl
theorem host1_v19 : StableHlo.after hostOps1 W (Proc.devRef .tc main_v19) = LayerNormRows.rowOf (W (Proc.devRef .tc main_arg7)) := by
  refine Eq.trans ?_ (reshape_row (W (Proc.devRef .tc main_arg7)) shapeCasts_S128_S1x128); after_results; rfl
theorem host1_v20 : StableHlo.after hostOps1 W (Proc.devRef .tc main_v20) = LayerNormRows.rowOf (W (Proc.devRef .tc main_arg8)) := by
  refine Eq.trans ?_ (reshape_row (W (Proc.devRef .tc main_arg8)) shapeCasts_S128_S1x128); after_results; rfl
theorem host1_main_arg5 : StableHlo.after hostOps1 W (Proc.devRef .tc main_arg5) = W (Proc.devRef .tc main_arg5) := by after_results
theorem host1_main_v1 : StableHlo.after hostOps1 W (Proc.devRef .tc main_v1) = W (Proc.devRef .tc main_v1) := by after_results
theorem host1_main_v3 : StableHlo.after hostOps1 W (Proc.devRef .tc main_v3) = W (Proc.devRef .tc main_v3) := by after_results
theorem host1_main_arg2 : StableHlo.after hostOps1 W (Proc.devRef .tc main_arg2) = W (Proc.devRef .tc main_arg2) := by after_results
theorem host1_main_arg6 : StableHlo.after hostOps1 W (Proc.devRef .tc main_arg6) = W (Proc.devRef .tc main_arg6) := by after_results
theorem host1_main_arg9 : StableHlo.after hostOps1 W (Proc.devRef .tc main_arg9) = W (Proc.devRef .tc main_arg9) := by after_results
theorem host1_main_arg10 : StableHlo.after hostOps1 W (Proc.devRef .tc main_arg10) = W (Proc.devRef .tc main_arg10) := by after_results

set_option maxHeartbeats 4000000 in
theorem host3_v35 : StableHlo.after hostOps3 W (Proc.devRef .tc main_v35)
    = Cert.ReferenceIdeal.RefSpec.aggOf (W (Proc.devRef .tc main_v22)) (W (Proc.devRef .tc main_v1)) (W (Proc.devRef .tc main_v3)) (W (Proc.devRef .tc main_arg2)) := by
  after_results; rfl
theorem host3_v36 : StableHlo.after hostOps3 W (Proc.devRef .tc main_v36) = LayerNormRows.rowOf (W (Proc.devRef .tc main_arg6)) := by
  refine Eq.trans ?_ (reshape_row (W (Proc.devRef .tc main_arg6)) shapeCasts_S128_S1x128); after_results; rfl
theorem host3_v37 : StableHlo.after hostOps3 W (Proc.devRef .tc main_v37) = LayerNormRows.rowOf (W (Proc.devRef .tc main_arg9)) := by
  refine Eq.trans ?_ (reshape_row (W (Proc.devRef .tc main_arg9)) shapeCasts_S128_S1x128); after_results; rfl
theorem host3_v38 : StableHlo.after hostOps3 W (Proc.devRef .tc main_v38) = LayerNormRows.rowOf (W (Proc.devRef .tc main_arg10)) := by
  refine Eq.trans ?_ (reshape_row (W (Proc.devRef .tc main_arg10)) shapeCasts_S128_S1x128); after_results; rfl

end Host

/-! ## The boundaries, one at a time -/

variable (m : (ℓ : Loc nD τ sig) → Buf (Elt Ideal) ℓ) (ρ : Dev nD → PrngReg) (c : Dev nD)

-- after the first stretch
theorem w1_main_v1 : W1 m ρ c (Proc.devRef .tc main_v1) = (Cert.ReferenceIdeal.ReadP.val_main_v1 (F := Ideal) (m ((c : Thread nD τ).loc main_arg1))) := host0_v1 (W0 m ρ c)
theorem w1_main_v3 : W1 m ρ c (Proc.devRef .tc main_v3) = (Cert.ReferenceIdeal.ReadP.val_main_v3 (F := Ideal) (m ((c : Thread nD τ).loc main_arg1))) := host0_v3 (W0 m ρ c)
theorem w1_main_arg0 : W1 m ρ c (Proc.devRef .tc main_arg0) = (m ((c : Thread nD τ).loc main_arg0)) := host0_main_arg0 (W0 m ρ c)
theorem w1_main_arg2 : W1 m ρ c (Proc.devRef .tc main_arg2) = (m ((c : Thread nD τ).loc main_arg2)) := host0_main_arg2 (W0 m ρ c)
theorem w1_main_arg3 : W1 m ρ c (Proc.devRef .tc main_arg3) = (m ((c : Thread nD τ).loc main_arg3)) := host0_main_arg3 (W0 m ρ c)
theorem w1_main_arg4 : W1 m ρ c (Proc.devRef .tc main_arg4) = (m ((c : Thread nD τ).loc main_arg4)) := host0_main_arg4 (W0 m ρ c)
theorem w1_main_arg5 : W1 m ρ c (Proc.devRef .tc main_arg5) = (m ((c : Thread nD τ).loc main_arg5)) := host0_main_arg5 (W0 m ρ c)
theorem w1_main_arg6 : W1 m ρ c (Proc.devRef .tc main_arg6) = (m ((c : Thread nD τ).loc main_arg6)) := host0_main_arg6 (W0 m ρ c)
theorem w1_main_arg7 : W1 m ρ c (Proc.devRef .tc main_arg7) = (m ((c : Thread nD τ).loc main_arg7)) := host0_main_arg7 (W0 m ρ c)
theorem w1_main_arg8 : W1 m ρ c (Proc.devRef .tc main_arg8) = (m ((c : Thread nD τ).loc main_arg8)) := host0_main_arg8 (W0 m ρ c)
theorem w1_main_arg9 : W1 m ρ c (Proc.devRef .tc main_arg9) = (m ((c : Thread nD τ).loc main_arg9)) := host0_main_arg9 (W0 m ρ c)
theorem w1_main_arg10 : W1 m ρ c (Proc.devRef .tc main_arg10) = (m ((c : Thread nD τ).loc main_arg10)) := host0_main_arg10 (W0 m ρ c)

-- after the first product
theorem w2_main_v4 : W2 m ρ c (Proc.devRef .tc main_v4) = RowsProduct.prod 50000 128 128 (m ((c : Thread nD τ).loc main_arg0)) (m ((c : Thread nD τ).loc main_arg3)) :=
  (W2_arr m ρ c 2).trans ((Lin0.final (V1 m ρ) c).trans
    (congrArg₂ (RowsProduct.prod 50000 128 128) (w1_main_arg0 m ρ c) (w1_main_arg3 m ρ c)))
theorem w2_main_v1 : W2 m ρ c (Proc.devRef .tc main_v1) = (Cert.ReferenceIdeal.ReadP.val_main_v1 (F := Ideal) (m ((c : Thread nD τ).loc main_arg1))) := (W2_of_ne m ρ c main_v1 (by decide)).trans (w1_main_v1 m ρ c)
theorem w2_main_v3 : W2 m ρ c (Proc.devRef .tc main_v3) = (Cert.ReferenceIdeal.ReadP.val_main_v3 (F := Ideal) (m ((c : Thread nD τ).loc main_arg1))) := (W2_of_ne m ρ c main_v3 (by decide)).trans (w1_main_v3 m ρ c)
theorem w2_main_arg2 : W2 m ρ c (Proc.devRef .tc main_arg2) = (m ((c : Thread nD τ).loc main_arg2)) := (W2_of_ne m ρ c main_arg2 (by decide)).trans (w1_main_arg2 m ρ c)
theorem w2_main_arg4 : W2 m ρ c (Proc.devRef .tc main_arg4) = (m ((c : Thread nD τ).loc main_arg4)) := (W2_of_ne m ρ c main_arg4 (by decide)).trans (w1_main_arg4 m ρ c)
theorem w2_main_arg5 : W2 m ρ c (Proc.devRef .tc main_arg5) = (m ((c : Thread nD τ).loc main_arg5)) := (W2_of_ne m ρ c main_arg5 (by decide)).trans (w1_main_arg5 m ρ c)
theorem w2_main_arg6 : W2 m ρ c (Proc.devRef .tc main_arg6) = (m ((c : Thread nD τ).loc main_arg6)) := (W2_of_ne m ρ c main_arg6 (by decide)).trans (w1_main_arg6 m ρ c)
theorem w2_main_arg7 : W2 m ρ c (Proc.devRef .tc main_arg7) = (m ((c : Thread nD τ).loc main_arg7)) := (W2_of_ne m ρ c main_arg7 (by decide)).trans (w1_main_arg7 m ρ c)
theorem w2_main_arg8 : W2 m ρ c (Proc.devRef .tc main_arg8) = (m ((c : Thread nD τ).loc main_arg8)) := (W2_of_ne m ρ c main_arg8 (by decide)).trans (w1_main_arg8 m ρ c)
theorem w2_main_arg9 : W2 m ρ c (Proc.devRef .tc main_arg9) = (m ((c : Thread nD τ).loc main_arg9)) := (W2_of_ne m ρ c main_arg9 (by decide)).trans (w1_main_arg9 m ρ c)
theorem w2_main_arg10 : W2 m ρ c (Proc.devRef .tc main_arg10) = (m ((c : Thread nD τ).loc main_arg10)) := (W2_of_ne m ρ c main_arg10 (by decide)).trans (w1_main_arg10 m ρ c)

-- after the first gather / scatter-add stretch
theorem w3_main_v17 : W3 m ρ c (Proc.devRef .tc main_v17) = (Cert.ReferenceIdeal.RefSpec.agg (m ((c : Thread nD τ).loc main_arg1)) (m ((c : Thread nD τ).loc main_arg2)) (RowsProduct.prod 50000 128 128 (m ((c : Thread nD τ).loc main_arg0)) (m ((c : Thread nD τ).loc main_arg3)))) :=
  (host1_v17 (W2 m ρ c)).trans (by rw [w2_main_v4, w2_main_v1, w2_main_v3, w2_main_arg2]; rfl)
theorem w3_main_v18 : W3 m ρ c (Proc.devRef .tc main_v18) = (LayerNormRows.rowOf (m ((c : Thread nD τ).loc main_arg4))) := (host1_v18 (W2 m ρ c)).trans (by rw [w2_main_arg4])
theorem w3_main_v19 : W3 m ρ c (Proc.devRef .tc main_v19) = (LayerNormRows.rowOf (m ((c : Thread nD τ).loc main_arg7))) := (host1_v19 (W2 m ρ c)).trans (by rw [w2_main_arg7])
theorem w3_main_v20 : W3 m ρ c (Proc.devRef .tc main_v20) = (LayerNormRows.rowOf (m ((c : Thread nD τ).loc main_arg8))) := (host1_v20 (W2 m ρ c)).trans (by rw [w2_main_arg8])
theorem w3_main_arg5 : W3 m ρ c (Proc.devRef .tc main_arg5) = (m ((c : Thread nD τ).loc main_arg5)) := (host1_main_arg5 (W2 m ρ c)).trans (w2_main_arg5 m ρ c)
theorem w3_main_v1 : W3 m ρ c (Proc.devRef .tc main_v1) = (Cert.ReferenceIdeal.ReadP.val_main_v1 (F := Ideal) (m ((c : Thread nD τ).loc main_arg1))) := (host1_main_v1 (W2 m ρ c)).trans (w2_main_v1 m ρ c)
theorem w3_main_v3 : W3 m ρ c (Proc.devRef .tc main_v3) = (Cert.ReferenceIdeal.ReadP.val_main_v3 (F := Ideal) (m ((c : Thread nD τ).loc main_arg1))) := (host1_main_v3 (W2 m ρ c)).trans (w2_main_v3 m ρ c)
theorem w3_main_arg2 : W3 m ρ c (Proc.devRef .tc main_arg2) = (m ((c : Thread nD τ).loc main_arg2)) := (host1_main_arg2 (W2 m ρ c)).trans (w2_main_arg2 m ρ c)
theorem w3_main_arg6 : W3 m ρ c (Proc.devRef .tc main_arg6) = (m ((c : Thread nD τ).loc main_arg6)) := (host1_main_arg6 (W2 m ρ c)).trans (w2_main_arg6 m ρ c)
theorem w3_main_arg9 : W3 m ρ c (Proc.devRef .tc main_arg9) = (m ((c : Thread nD τ).loc main_arg9)) := (host1_main_arg9 (W2 m ρ c)).trans (w2_main_arg9 m ρ c)
theorem w3_main_arg10 : W3 m ρ c (Proc.devRef .tc main_arg10) = (m ((c : Thread nD τ).loc main_arg10)) := (host1_main_arg10 (W2 m ρ c)).trans (w2_main_arg10 m ρ c)

-- after the first normalisation
theorem w4_main_v21 : W4 m ρ c (Proc.devRef .tc main_v21) = (Cert.ReferenceIdeal.RefSpec.norm (Cert.ReferenceIdeal.RefSpec.agg (m ((c : Thread nD τ).loc main_arg1)) (m ((c : Thread nD τ).loc main_arg2)) (RowsProduct.prod 50000 128 128 (m ((c : Thread nD τ).loc main_arg0)) (m ((c : Thread nD τ).loc main_arg3)))) (LayerNormRows.rowOf (m ((c : Thread nD τ).loc main_arg4))) (LayerNormRows.rowOf (m ((c : Thread nD τ).loc main_arg7))) (LayerNormRows.rowOf (m ((c : Thread nD τ).loc main_arg8)))) :=
  (W4_arr m ρ c 4).trans ((Ln1.final (V3 m ρ) c).trans (by
    rw [show V3 m ρ c main_v17 = _ from w3_main_v17 m ρ c, show V3 m ρ c main_v18 = _ from w3_main_v18 m ρ c,
      show V3 m ρ c main_v19 = _ from w3_main_v19 m ρ c, show V3 m ρ c main_v20 = _ from w3_main_v20 m ρ c]))
theorem w4_main_arg5 : W4 m ρ c (Proc.devRef .tc main_arg5) = (m ((c : Thread nD τ).loc main_arg5)) := (W4_of_ne m ρ c main_arg5 (by decide)).trans (w3_main_arg5 m ρ c)
theorem w4_main_v1 : W4 m ρ c (Proc.devRef .tc main_v1) = (Cert.ReferenceIdeal.ReadP.val_main_v1 (F := Ideal) (m ((c : Thread nD τ).loc main_arg1))) := (W4_of_ne m ρ c main_v1 (by decide)).trans (w3_main_v1 m ρ c)
theorem w4_main_v3 : W4 m ρ c (Proc.devRef .tc main_v3) = (Cert.ReferenceIdeal.ReadP.val_main_v3 (F := Ideal) (m ((c : Thread nD τ).loc main_arg1))) := (W4_of_ne m ρ c main_v3 (by decide)).trans (w3_main_v3 m ρ c)
theorem w4_main_arg2 : W4 m ρ c (Proc.devRef .tc main_arg2) = (m ((c : Thread nD τ).loc main_arg2)) := (W4_of_ne m ρ c main_arg2 (by decide)).trans (w3_main_arg2 m ρ c)
theorem w4_main_arg6 : W4 m ρ c (Proc.devRef .tc main_arg6) = (m ((c : Thread nD τ).loc main_arg6)) := (W4_of_ne m ρ c main_arg6 (by decide)).trans (w3_main_arg6 m ρ c)
theorem w4_main_arg9 : W4 m ρ c (Proc.devRef .tc main_arg9) = (m ((c : Thread nD τ).loc main_arg9)) := (W4_of_ne m ρ c main_arg9 (by decide)).trans (w3_main_arg9 m ρ c)
theorem w4_main_arg10 : W4 m ρ c (Proc.devRef .tc main_arg10) = (m ((c : Thread nD τ).loc main_arg10)) := (W4_of_ne m ρ c main_arg10 (by decide)).trans (w3_main_arg10 m ρ c)

-- after the second product
theorem w5_main_v22 : W5 m ρ c (Proc.devRef .tc main_v22) = (RowsProduct.prod 50000 128 128 (Cert.ReferenceIdeal.RefSpec.norm (Cert.ReferenceIdeal.RefSpec.agg (m ((c : Thread nD τ).loc main_arg1)) (m ((c : Thread nD τ).loc main_arg2)) (RowsProduct.prod 50000 128 128 (m ((c : Thread nD τ).loc main_arg0)) (m ((c : Thread nD τ).loc main_arg3)))) (LayerNormRows.rowOf (m ((c : Thread nD τ).loc main_arg4))) (LayerNormRows.rowOf (m ((c : Thread nD τ).loc main_arg7))) (LayerNormRows.rowOf (m ((c : Thread nD τ).loc main_arg8)))) (m ((c : Thread nD τ).loc main_arg5))) :=
  (W5_arr m ρ c 2).trans ((Lin2.final (V4 m ρ) c).trans
    (congrArg₂ (RowsProduct.prod 50000 128 128) (w4_main_v21 m ρ c) (w4_main_arg5 m ρ c)))
theorem w5_main_v1 : W5 m ρ c (Proc.devRef .tc main_v1) = (Cert.ReferenceIdeal.ReadP.val_main_v1 (F := Ideal) (m ((c : Thread nD τ).loc main_arg1))) := (W5_of_ne m ρ c main_v1 (by decide)).trans (w4_main_v1 m ρ c)
theorem w5_main_v3 : W5 m ρ c (Proc.devRef .tc main_v3) = (Cert.ReferenceIdeal.ReadP.val_main_v3 (F := Ideal) (m ((c : Thread nD τ).loc main_arg1))) := (W5_of_ne m ρ c main_v3 (by decide)).trans (w4_main_v3 m ρ c)
theorem w5_main_arg2 : W5 m ρ c (Proc.devRef .tc main_arg2) = (m ((c : Thread nD τ).loc main_arg2)) := (W5_of_ne m ρ c main_arg2 (by decide)).trans (w4_main_arg2 m ρ c)
theorem w5_main_arg6 : W5 m ρ c (Proc.devRef .tc main_arg6) = (m ((c : Thread nD τ).loc main_arg6)) := (W5_of_ne m ρ c main_arg6 (by decide)).trans (w4_main_arg6 m ρ c)
theorem w5_main_arg9 : W5 m ρ c (Proc.devRef .tc main_arg9) = (m ((c : Thread nD τ).loc main_arg9)) := (W5_of_ne m ρ c main_arg9 (by decide)).trans (w4_main_arg9 m ρ c)
theorem w5_main_arg10 : W5 m ρ c (Proc.devRef .tc main_arg10) = (m ((c : Thread nD τ).loc main_arg10)) := (W5_of_ne m ρ c main_arg10 (by decide)).trans (w4_main_arg10 m ρ c)

-- after the second gather / scatter-add stretch
theorem w6_main_v35 : W6 m ρ c (Proc.devRef .tc main_v35) = (Cert.ReferenceIdeal.RefSpec.agg (m ((c : Thread nD τ).loc main_arg1)) (m ((c : Thread nD τ).loc main_arg2)) (RowsProduct.prod 50000 128 128 (Cert.ReferenceIdeal.RefSpec.norm (Cert.ReferenceIdeal.RefSpec.agg (m ((c : Thread nD τ).loc main_arg1)) (m ((c : Thread nD τ).loc main_arg2)) (RowsProduct.prod 50000 128 128 (m ((c : Thread nD τ).loc main_arg0)) (m ((c : Thread nD τ).loc main_arg3)))) (LayerNormRows.rowOf (m ((c : Thread nD τ).loc main_arg4))) (LayerNormRows.rowOf (m ((c : Thread nD τ).loc main_arg7))) (LayerNormRows.rowOf (m ((c : Thread nD τ).loc main_arg8)))) (m ((c : Thread nD τ).loc main_arg5)))) :=
  (host3_v35 (W5 m ρ c)).trans (by rw [w5_main_v22, w5_main_v1, w5_main_v3, w5_main_arg2]; rfl)
theorem w6_main_v36 : W6 m ρ c (Proc.devRef .tc main_v36) = (LayerNormRows.rowOf (m ((c : Thread nD τ).loc main_arg6))) := (host3_v36 (W5 m ρ c)).trans (by rw [w5_main_arg6])
theorem w6_main_v37 : W6 m ρ c (Proc.devRef .tc main_v37) = (LayerNormRows.rowOf (m ((c : Thread nD τ).loc main_arg9))) := (host3_v37 (W5 m ρ c)).trans (by rw [w5_main_arg9])
theorem w6_main_v38 : W6 m ρ c (Proc.devRef .tc main_v38) = (LayerNormRows.rowOf (m ((c : Thread nD τ).loc main_arg10))) := (host3_v38 (W5 m ρ c)).trans (by rw [w5_main_arg10])

/-- THE RESULT: after the second normalisation the result buffer holds the network of the argument arrays. -/
theorem result : W7 m ρ c (Proc.devRef .tc main_v39)
    = Cert.ReferenceIdeal.RefSpec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W7_arr m ρ c 4).trans ((Ln3.final (V6 m ρ) c).trans (by
    rw [show V6 m ρ c main_v35 = _ from w6_main_v35 m ρ c, show V6 m ρ c main_v36 = _ from w6_main_v36 m ρ c,
      show V6 m ρ c main_v37 = _ from w6_main_v37 m ρ c, show V6 m ρ c main_v38 = _ from w6_main_v38 m ρ c]
    rfl))

end Cert.KernelIdeal.KValue

end
-- ==== Proof.lean ====
/-
  Two graph-convolution layers with layer normalisation: the kernel against its reference, on the extended reals.

  Each layer is: a matrix product h · W; for every edge (s → t, weight w) the row s of the product, times w, added
  into row t of an accumulator of zeros; a bias; the normalisation of every row by its own mean and variance over the
  128 features, scaled and shifted; the maximum with zero. The kernel computes the product and the normalisation in
  pallas_calls that tile the 50000 rows over ten grid points, and leaves the gather and the scatter-add to the host; the
  reference computes everything on the host. At the exact instance the two programs apply the same operations in the
  same order: a product's entry reads one row and one column, a normalised entry reads one row, so tiling the rows
  changes nothing (row locality, in LibRowsProduct and LibLayerNormRows); the casts to bf16 are the identity; a
  `tpu.matmul` into zero and the host's `dot_general` are the same sum; the bias reshaped to a [1, 128] row and the bias
  broadcast twice read the same entries; and the gather / scatter-add is one closed term on both sides, equal by
  congruence once its operand is. No law of arithmetic that could fail at an infinity is used, so the precondition (all
  float inputs finite) is never opened.

  The frames of the two kernels are the generated ones. The reference's frame is its run with the result dropped.
  `preserves` has no entry: the idealization rewrote no operation.
-/
import proofs.«120539_j61881888800780_1_alg».proof.Defs
import proofs.«120539_j61881888800780_1_alg».proof.Proof.Gen.Kernel
import proofs.«120539_j61881888800780_1_alg».proof.Proof.Gen.Kernel.Frame
import proofs.«120539_j61881888800780_1_alg».proof.Proof.Gen.KernelIdeal
import proofs.«120539_j61881888800780_1_alg».proof.Proof.Gen.KernelIdeal.Frame
import proofs.«120539_j61881888800780_1_alg».proof.Proof.Gen.ReferenceIdeal
import proofs.«120539_j61881888800780_1_alg».proof.Proof.Gen.Pre_finite_inputs
import proofs.«120539_j61881888800780_1_alg».proof.Proof.RefRunP
import proofs.«120539_j61881888800780_1_alg».proof.Proof.RefReadP
import proofs.«120539_j61881888800780_1_alg».proof.Proof.RefSpec
import proofs.«120539_j61881888800780_1_alg».proof.Proof.KernelRun
import proofs.«120539_j61881888800780_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result buffer at the network of the argument arrays: the kernel by the run read boundary
    by boundary, the reference by its run read stage by stage; the argument arrays agree by hypothesis. -/
theorem algebraic : Cert.algebraic_KernelIdeal_ReferenceIdeal := by
  intro m ρ m' ρ' _ hagree
  refine ⟨fun c => Cert.ReferenceIdeal.RefSpec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KValue.result m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10⟩ := hagree c
    rw [Cert.ReferenceIdeal.ReadP.val_main_v87_eq, Cert.ReferenceIdeal.RefSpec.result_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
